-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024x1x1 : Shape := ⟨4, ![2048, 1024, 1, 1]⟩
abbrev S2048x32x1024x1x1 : Shape := ⟨5, ![2048, 32, 1024, 1, 1]⟩
abbrev S2048x4 : Shape := ⟨2, ![2048, 4]⟩
abbrev S2048x32x4 : Shape := ⟨3, ![2048, 32, 4]⟩
abbrev S2048x32 : Shape := ⟨2, ![2048, 32]⟩
abbrev S1024x2048 : Shape := ⟨2, ![1024, 2048]⟩
abbrev S1024 : Shape := ⟨1, ![1024]⟩
abbrev S_ : Shape := ⟨0, ![]⟩

class Facts : Prop where
  bcast_S_S2048x1024x1x1 : S_.BroadcastsInDim S2048x1024x1x1 (![] : Fin 0 → Fin S2048x1024x1x1.rank)
  reducesTo_S2048x1024x1x1_S_d0_1_2_3 : S2048x1024x1x1.ReducesTo [0, 1, 2, 3] S_
  h_S_ : 0 < S_.numel
  bcast_S_S2048x32x1024x1x1 : S_.BroadcastsInDim S2048x32x1024x1x1 (![] : Fin 0 → Fin S2048x32x1024x1x1.rank)
  reducesTo_S2048x32x1024x1x1_S_d0_1_2_3_4 : S2048x32x1024x1x1.ReducesTo [0, 1, 2, 3, 4] S_
  bcast_S_S2048x4 : S_.BroadcastsInDim S2048x4 (![] : Fin 0 → Fin S2048x4.rank)
  reducesTo_S2048x4_S_d0_1 : S2048x4.ReducesTo [0, 1] S_
  bcast_S_S2048x32x4 : S_.BroadcastsInDim S2048x32x4 (![] : Fin 0 → Fin S2048x32x4.rank)
  reducesTo_S2048x32x4_S_d0_1_2 : S2048x32x4.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x2048 .f32) (main_arg6 : FVec F S1024 .f32) (main_v13 : IVec S_ 1) (main_v16 : IVec S2048x32x4 1) : IVec S_ 1 :=
  let main_c_5 : IVec S_ 1 := constantI S_ 1 1#1
  let main_v17 : IVec S_ 1 := (fun x v => Host.reduce IntOp.andi x v reducesTo_S2048x32x4_S_d0_1_2 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2048x1024x1x1 .f32) (main_arg1 : FVec F S2048x32x1024x1x1 .f32) (main_arg2 : FVec F S2048x4 .f32) (main_arg3 : FVec F S2048x32x4 .f32) (main_arg4 : IVec S2048x32 1) (main_arg5 : FVec F S1024x2048 .f32) (main_arg6 : FVec F S1024 .f32) : IVec S_ 1 :=
  let main_v0 : FVec F S2048x1024x1x1 .f32 := Host.absf main_arg0
  let main_cst : FVec F S_ .f32 := constant S_ .f32 0x7F800000#32
  let main_v1 : FVec F S2048x1024x1x1 .f32 := broadcastInDim S2048x1024x1x1 ![] bcast_S_S2048x1024x1x1 main_cst
  let main_v2 : IVec S2048x1024x1x1 1 := cmpf .olt main_v0 main_v1
  let main_c : IVec S_ 1 := constantI S_ 1 1#1
  let main_v3 : IVec S_ 1 := (fun x v => Host.reduce IntOp.andi x v reducesTo_S2048x1024x1x1_S_d0_1_2_3 h_S_) main_v2 main_c
  let main_v4 : FVec F S2048x32x1024x1x1 .f32 := Host.absf main_arg1
  let main_cst_0 : FVec F S_ .f32 := constant S_ .f32 0x7F800000#32
  let main_v5 : FVec F S2048x32x1024x1x1 .f32 := broadcastInDim S2048x32x1024x1x1 ![] bcast_S_S2048x32x1024x1x1 main_cst_0
  let main_v6 : IVec S2048x32x1024x1x1 1 := cmpf .olt main_v4 main_v5
  let main_c_1 : IVec S_ 1 := constantI S_ 1 1#1
  let main_v7 : IVec S_ 1 := (fun x v => Host.reduce IntOp.andi x v reducesTo_S2048x32x1024x1x1_S_d0_1_2_3_4 h_S_) main_v6 main_c_1
  let main_v8 : IVec S_ 1 := andi main_v3 main_v7
  let main_v9 : FVec F S2048x4 .f32 := Host.absf main_arg2
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_v14 : FVec F S2048x32x4 .f32 := Host.absf main_arg3
  let main_cst_4 : FVec F S_ .f32 := constant S_ .f32 0x7F800000#32
  let main_v15 : FVec F S2048x32x4 .f32 := broadcastInDim S2048x32x4 ![] bcast_S_S2048x32x4 main_cst_4
  let main_v16 : IVec S2048x32x4 1 := cmpf .olt main_v14 main_v15
  fn_part1 (F := F) main_arg5 main_arg6 main_v13 main_v16
-- ==== Kernel.lean ====
abbrev S2048x1024x1x1 : Shape := ⟨4, ![2048, 1024, 1, 1]⟩
abbrev S2048x32x1024x1x1 : Shape := ⟨5, ![2048, 32, 1024, 1, 1]⟩
abbrev S2048x4 : Shape := ⟨2, ![2048, 4]⟩
abbrev S2048x32x4 : Shape := ⟨3, ![2048, 32, 4]⟩
abbrev S2048x32 : Shape := ⟨2, ![2048, 32]⟩
abbrev S1024x2048 : Shape := ⟨2, ![1024, 2048]⟩
abbrev S1024 : Shape := ⟨1, ![1024]⟩
abbrev S2048x1024 : Shape := ⟨2, ![2048, 1024]⟩
abbrev S2048x32x1024 : Shape := ⟨3, ![2048, 32, 1024]⟩
abbrev S1024x1024 : Shape := ⟨2, ![1024, 1024]⟩
abbrev S1x1024 : Shape := ⟨2, ![1, 1024]⟩
abbrev S64x1024 : Shape := ⟨2, ![64, 1024]⟩
abbrev S64x32x1024 : Shape := ⟨3, ![64, 32, 1024]⟩
abbrev S64x1x1024 : Shape := ⟨3, ![64, 1, 1024]⟩

abbrev nBuf : Space → Nat
  | .hbm => 16
  | .vmem => 9
  | .smem => 0
  | _ => 0

abbrev bufTy : (tb : Table) → Fin (tcTables nBuf tb) → BufTy
  | .hbm, ⟨0, _⟩ => ⟨S2048x1024x1x1, .f32⟩
  | .hbm, ⟨1, _⟩ => ⟨S2048x32x1024x1x1, .f32⟩
  | .hbm, ⟨2, _⟩ => ⟨S2048x4, .f32⟩
  | .hbm, ⟨3, _⟩ => ⟨S2048x32x4, .f32⟩
  | .hbm, ⟨4, _⟩ => ⟨S2048x32, .i1⟩
  | .hbm, ⟨5, _⟩ => ⟨S1024x2048, .f32⟩
  | .hbm, ⟨6, _⟩ => ⟨S1024, .f32⟩
  | .hbm, ⟨7, _⟩ => ⟨S2048x1024, .f32⟩
  | .hbm, ⟨8, _⟩ => ⟨S2048x32x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S2048x1024, .f32⟩
  | .hbm, ⟨15, _⟩ => ⟨S2048x1024x1x1, .f32⟩
  | .local _ .vmem, ⟨0, _⟩ => ⟨S64x1024, .f32⟩
  | .local _ .vmem, ⟨1, _⟩ => ⟨S64x1024, .f32⟩
  | .local _ .vmem, ⟨2, _⟩ => ⟨S64x32x1024, .f32⟩
  | .local _ .vmem, ⟨3, _⟩ => ⟨S64x32x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S64x1024, .f32⟩
  | .local _ .vmem, ⟨8, _⟩ => ⟨S64x1024, .f32⟩
  | _, _ => ⟨S2048x1024x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x1024x1x1_S2048x1024 : S2048x1024x1x1.ShapeCasts S2048x1024
  shapeCasts_S2048x32x1024x1x1_S2048x32x1024 : S2048x32x1024x1x1.ShapeCasts S2048x32x1024
  slices_S1024x2048_S1024x1024_0_0 : S1024x2048.Slices ![0, 0] S1024x1024
  bitsLt_bf16_f32 : FTy.bits .bf16 < FTy.bits .f32
  slices_S1024x2048_S1024x1024_0_1024 : S1024x2048.Slices ![0, 1024] S1024x1024
  shapeCasts_S1024_S1x1024 : S1024.ShapeCasts S1x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S64x32x1024_S64x32x1024_0_0_0 : ∀ a, (![0, 0, 0] : Fin 3 → Nat) a + S64x32x1024.size a ≤ S64x32x1024.size a
  h_S64x32x1024 : 0 < S64x32x1024.numel
  shapeCasts_S64x32x1024_S64x32x1024 : S64x32x1024.ShapeCasts S64x32x1024
  shapeCasts_S64x32x1024_S2048x1024 : S64x32x1024.ShapeCasts S2048x1024
  shapeCasts_S2048x1024_S64x32x1024 : S2048x1024.ShapeCasts S64x32x1024
  shapeCasts_S64x1024_S64x1x1024 : S64x1024.ShapeCasts S64x1x1024
  broadcasts_S64x1x1024_S64x32x1024 : S64x1x1024.Broadcasts S64x32x1024
  reduces_S64x32x1024_S64x1024 : S64x32x1024.Reduces [1] S64x1024
  bcast_S2048x1024_S2048x1024x1x1_0_1 : S2048x1024.BroadcastsInDim S2048x1024x1x1 (![0, 1] : Fin 2 → Fin S2048x1024x1x1.rank)
  dot_S64x1024_S1024x1024_S64x1024_1_1_0_0_n_n_wf : DotDims.WF S64x1024 S1024x1024 S64x1024 [1] [1] [0] [0] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S2048x1024.size a
  hwx0_0 : ∀ i : grid0.Coords, EltTy.bits .f32 = 32 ∨ (Rect.block (s := S2048x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x1024.size a ≤ S2048x32x1024.size a
  hwx0_1 : ∀ i : grid0.Coords, EltTy.bits .f32 = 32 ∨ (Rect.block (s := S2048x32x1024) S64x32x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S2048x1024.size a
  hwx0_5 : ∀ i : grid0.Coords, EltTy.bits .f32 = 32 ∨ (Rect.block (s := S2048x1024) S64x1024.size (cc0_transform_5 i) (hinb0_5 i)).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x1024x1x1 : Shape := ⟨4, ![2048, 1024, 1, 1]⟩
abbrev S2048x32x1024x1x1 : Shape := ⟨5, ![2048, 32, 1024, 1, 1]⟩
abbrev S2048x4 : Shape := ⟨2, ![2048, 4]⟩
abbrev S2048x32x4 : Shape := ⟨3, ![2048, 32, 4]⟩
abbrev S2048x32 : Shape := ⟨2, ![2048, 32]⟩
abbrev S1024x2048 : Shape := ⟨2, ![1024, 2048]⟩
abbrev S1024 : Shape := ⟨1, ![1024]⟩
abbrev S2048x1024 : Shape := ⟨2, ![2048, 1024]⟩
abbrev S2048x32x1024 : Shape := ⟨3, ![2048, 32, 1024]⟩
abbrev S1024x1024 : Shape := ⟨2, ![1024, 1024]⟩
abbrev S2048x1x1024 : Shape := ⟨3, ![2048, 1, 1024]⟩
abbrev S1x1x1024 : Shape := ⟨3, ![1, 1, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024x1x1, .f32⟩
  | .hbm, ⟨1, _⟩ => ⟨S2048x32x1024x1x1, .f32⟩
  | .hbm, ⟨2, _⟩ => ⟨S2048x4, .f32⟩
  | .hbm, ⟨3, _⟩ => ⟨S2048x32x4, .f32⟩
  | .hbm, ⟨4, _⟩ => ⟨S2048x32, .i1⟩
  | .hbm, ⟨5, _⟩ => ⟨S1024x2048, .f32⟩
  | .hbm, ⟨6, _⟩ => ⟨S1024, .f32⟩
  | .hbm, ⟨7, _⟩ => ⟨S2048x1024, .f32⟩
  | .hbm, ⟨8, _⟩ => ⟨S2048x32x1024, .f32⟩
  | .hbm, ⟨9, _⟩ => ⟨S1024x1024, .f32⟩
  | .hbm, ⟨10, _⟩ => ⟨S1024x1024, .f32⟩
  | .hbm, ⟨11, _⟩ => ⟨S2048x1024, .f32⟩
  | .hbm, ⟨12, _⟩ => ⟨S2048x32x1024, .f32⟩
  | .hbm, ⟨13, _⟩ => ⟨S2048x1x1024, .f32⟩
  | .hbm, ⟨14, _⟩ => ⟨S2048x32x1024, .f32⟩
  | .hbm, ⟨15, _⟩ => ⟨S2048x32x1024, .f32⟩
  | .hbm, ⟨16, _⟩ => ⟨S1x1x1024, .f32⟩
  | .hbm, ⟨17, _⟩ => ⟨S2048x32x1024, .f32⟩
  | .hbm, ⟨18, _⟩ => ⟨S2048x32x1024, .f32⟩
  | .hbm, ⟨19, _⟩ => ⟨S_, .f32⟩
  | .hbm, ⟨20, _⟩ => ⟨S2048x1024, .f32⟩
  | .hbm, ⟨21, _⟩ => ⟨S2048x1024x1x1, .f32⟩
  | _, _ => ⟨S2048x1024x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  shapeCasts_S2048x1024x1x1_S2048x1024 : S2048x1024x1x1.ShapeCasts S2048x1024
  shapeCasts_S2048x32x1024x1x1_S2048x32x1024 : S2048x32x1024x1x1.ShapeCasts S2048x32x1024
  slices_S1024x2048_S1024x1024_0_0 : S1024x2048.Slices ![0, 0] S1024x1024
  slices_S1024x2048_S1024x1024_0_1024 : S1024x2048.Slices ![0, 1024] S1024x1024
  bcast_S2048x1024_S2048x1x1024_0_2 : S2048x1024.BroadcastsInDim S2048x1x1024 (![0, 2] : Fin 2 → Fin S2048x1x1024.rank)
  bcast_S2048x1x1024_S2048x32x1024_0_1_2 : S2048x1x1024.BroadcastsInDim S2048x32x1024 (![0, 1, 2] : Fin 3 → Fin S2048x32x1024.rank)
  bcast_S1024_S1x1x1024_2 : S1024.BroadcastsInDim S1x1x1024 (![2] : Fin 1 → Fin S1x1x1024.rank)
  bcast_S1x1x1024_S2048x32x1024_0_1_2 : S1x1x1024.BroadcastsInDim S2048x32x1024 (![0, 1, 2] : Fin 3 → Fin S2048x32x1024.rank)
  reducesTo_S2048x32x1024_S2048x1024_d1 : S2048x32x1024.ReducesTo [1] S2048x1024
  h_S_ : 0 < S_.numel
  bcast_S2048x1024_S2048x1024x1x1_0_1 : S2048x1024.BroadcastsInDim S2048x1024x1x1 (![0, 1] : Fin 2 → Fin S2048x1024x1x1.rank)
  dot_S2048x1024_S1024x1024_S2048x1024_1_1_0_0_n_n_wf : DotDims.WF S2048x1024 S1024x1024 S2048x1024 [1] [1] [0] [0] [] []
  dot_S2048x32x1024_S1024x1024_S2048x32x1024_2_1_01_0_n_n_wf : DotDims.WF S2048x32x1024 S1024x1024 S2048x32x1024 [2] [1] [0, 1] [0] [] []

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x32x1024_S1024x1024_S2048x32x1024_2_1_01_0_n_n : DotDims S2048x32x1024 S1024x1024 S2048x32x1024 where
  lhsContracting := [2]
  rhsContracting := [1]
  lhsNonContracting := [0, 1]
  rhsNonContracting := [0]
  lhsBatch := []
  rhsBatch := []
  wf := dot_S2048x32x1024_S1024x1024_S2048x32x1024_2_1_01_0_n_n_wf

class Facts : Prop extends Facts₀ where

variable [Facts]
-- ==== Proof.KernelPayload.lean ====
/-
  The value the kernel body stores, read at an index of its `64 × 1024` block.

  With `x` the block of 64 rows, `o` the block of 64 × 32 slots, `wp`, `wo` the two weight matrices and `b` the bias
  row, the stored value at `(r, d)` is the maximum over the 32 slots `m`, from `-∞`, of
    `((∑ k, x[r,k] · wp[d,k]) + b[0,d]) + ∑ k, o[r,m,k] · wo[d,k]`.
  The body reaches it through layout changes that move no value: the slots are flattened into rows `32·r + m` for
  one product and unflattened afterwards, the row product with its bias is given a unit middle axis and repeated along
  it, and the roundings to a narrower format are the identity on extended reals. Each product accumulates into zero,
  so it is the plain sum over the contracted coordinate.
-/
import proofs.«124014_j1984274890946_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The two products: operand coordinates, and the product at an index as a sum over `k` -/

theorem lhs64_0 (i : S64x1024.Idx) (q : dot_S64x1024_S1024x1024_S64x1024_1_1_0_0_n_n.contr.Idx) :
    (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl
theorem lhs64_1 (i : S64x1024.Idx) (q : dot_S64x1024_S1024x1024_S64x1024_1_1_0_0_n_n.contr.Idx) :
    (dot_S64x1024_S1024x1024_S64x1024_1_1_0_0_n_n.lhsIdx i q 1).val = (q ⟨0, by decide⟩).val :=
  dot_S64x1024_S1024x1024_S64x1024_1_1_0_0_n_n.lhsIdx_val_of_single rfl i q
theorem rhs64_0 (i : S64x1024.Idx) (q : dot_S64x1024_S1024x1024_S64x1024_1_1_0_0_n_n.contr.Idx) :
    (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl
theorem rhs64_1 (i : S64x1024.Idx) (q : dot_S64x1024_S1024x1024_S64x1024_1_1_0_0_n_n.contr.Idx) :
    (dot_S64x1024_S1024x1024_S64x1024_1_1_0_0_n_n.rhsIdx i q 1).val = (q ⟨0, by decide⟩).val :=
  dot_S64x1024_S1024x1024_S64x1024_1_1_0_0_n_n.rhsIdx_val_of_single rfl i q

/-- The 64-row product into zero, at `(r, d)`: `∑ k, A[r,k] · B[d,k]`. -/
theorem matmul64_apply (A : FVec Ideal S64x1024 .bf16) (B : FVec Ideal S1024x1024 .bf16) (r : Fin 64) (d : Fin 1024) :
    matmul dot_S64x1024_S1024x1024_S64x1024_1_1_0_0_n_n none A B (constant (F := Ideal) S64x1024 .f32 0x00000000#32) (ix2 r d)
      = ∑ k : Fin 1024, A (ix2 r k) * B (ix2 d k) := by
  simp only [matmul]
  rw [Ideal.matmul_constant_zero_apply, ← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 r d) ((contrEquiv1 dot_S64x1024_S1024x1024_S64x1024_1_1_0_0_n_n 1024 rfl rfl).symm k) = ix2 r k := funext fun a => Fin.ext (by
    match a with
    | ⟨0, _⟩ => exact lhs64_0 _ _
    | ⟨1, _⟩ => exact (lhs64_1 _ _).trans hk)
  have er : dot_S64x1024_S1024x1024_S64x1024_1_1_0_0_n_n.rhsIdx (ix2 r d) ((contrEquiv1 dot_S64x1024_S1024x1024_S64x1024_1_1_0_0_n_n 1024 rfl rfl).symm k) = ix2 d k := funext fun a => Fin.ext (by
    match a with
    | ⟨0, _⟩ => exact rhs64_0 _ _
    | ⟨1, _⟩ => exact (rhs64_1 _ _).trans hk)
  rw [el, er]

theorem lhs2048_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs2048_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs2048_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs2048_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The 2048-row product into zero, at `(s, d)`: `∑ k, A[s,k] · B[d,k]`. -/
theorem matmul2048_apply (A : FVec Ideal S2048x1024 .bf16) (B : FVec Ideal S1024x1024 .bf16) (s : Fin 2048) (d : Fin 1024) :
    matmul dot_S2048x1024_S1024x1024_S2048x1024_1_1_0_0_n_n none A B (constant (F := Ideal) S2048x1024 .f32 0x00000000#32) (ix2 s d)
      = ∑ k : Fin 1024, A (ix2 s k) * B (ix2 d k) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 s d) ((contrEquiv1 dot_S2048x1024_S1024x1024_S2048x1024_1_1_0_0_n_n 1024 rfl rfl).symm k) = ix2 s k := funext fun a => Fin.ext (by
    match a with
    | ⟨0, _⟩ => exact lhs2048_0 _ _
    | ⟨1, _⟩ => exact (lhs2048_1 _ _).trans hk)
  have er : dot_S2048x1024_S1024x1024_S2048x1024_1_1_0_0_n_n.rhsIdx (ix2 s d) ((contrEquiv1 dot_S2048x1024_S1024x1024_S2048x1024_1_1_0_0_n_n 1024 rfl rfl).symm k) = ix2 d k := funext fun a => Fin.ext (by
    match a with
    | ⟨0, _⟩ => exact rhs2048_0 _ _
    | ⟨1, _⟩ => exact (rhs2048_1 _ _).trans hk)
  rw [el, er]

/-! ## The layout changes, each read at an index -/

/-- Row `32·r + m` of the flattened slots. -/
abbrev flat (r : Fin 64) (m : Fin 32) : Fin 2048 := ⟨r.val * 32 + m.val, by have := r.isLt; have := m.isLt; omega⟩

/-- The one bias row repeated down the 64 rows. -/
theorem bias_rows_apply (v : FVec Ideal S1x1024 .f32) (r : Fin 64) (d : Fin 1024) :
    broadcastTo S64x1024 v broadcasts_S1x1024_S64x1024 (ix2 r d) = v (ix2 (0 : Fin 1) d) :=
  broadcastTo_1b_ab_apply v _ r d

/-- A unit middle axis added to a `64 × 1024` array. -/
theorem unit_mid_apply (v : FVec Ideal S64x1024 .f32) (r : Fin 64) (d : Fin 1024) :
    shapeCast S64x1x1024 v shapeCasts_S64x1024_S64x1x1024 (ix3 r (0 : Fin 1) d) = v (ix2 r d) :=
  shapeCast_apply v _ _ _ (by
    rw [Shape.rowMajor_val_two, Shape.rowMajor_val_three]
    show r.val * 1024 + d.val = (r.val * 1 + 0) * 1024 + d.val
    omega)

/-- The unit middle axis repeated over the 32 slots. -/
theorem repeat_mid_apply (v : FVec Ideal S64x1x1024 .f32) (r : Fin 64) (m : Fin 32) (d : Fin 1024) :
    broadcastTo S64x32x1024 v broadcasts_S64x1x1024_S64x32x1024 (ix3 r m d) = v (ix3 r (0 : Fin 1) d) :=
  broadcastTo_apply v _ (ix3 r m d) (ix3 r (0 : Fin 1) d) (fun ax => match ax with
    | ⟨0, _⟩ => by show r.val = if (64 : Nat) = 1 then 0 else r.val; rw [if_neg (by decide)]
    | ⟨1, _⟩ => by show 0 = if (1 : Nat) = 1 then 0 else m.val; rw [if_pos rfl]
    | ⟨2, _⟩ => by show d.val = if (1024 : Nat) = 1 then 0 else d.val; rw [if_neg (by decide)])

/-- The slots flattened into rows: row `32·r + m` is slot `(r, m)`. -/
theorem flatten_apply (v : FVec Ideal S64x32x1024 .f32) (r : Fin 64) (m : Fin 32) (k : Fin 1024) :
    shapeCast S2048x1024 v shapeCasts_S64x32x1024_S2048x1024 (ix2 (flat r m) k) = v (ix3 r m k) :=
  shapeCast_apply v _ _ _ (by
    rw [Shape.rowMajor_val_three, Shape.rowMajor_val_two]
    show (r.val * 32 + m.val) * 1024 + k.val = (r.val * 32 + m.val) * 1024 + k.val
    rfl)

/-- And unflattened: slot `(r, m)` is row `32·r + m`. -/
theorem unflatten_apply (v : FVec Ideal S2048x1024 .f32) (r : Fin 64) (m : Fin 32) (d : Fin 1024) :
    shapeCast S64x32x1024 v shapeCasts_S2048x1024_S64x32x1024 (ix3 r m d) = v (ix2 (flat r m) d) :=
  shapeCast_apply v _ _ _ (by
    rw [Shape.rowMajor_val_two, Shape.rowMajor_val_three]
    show (r.val * 32 + m.val) * 1024 + d.val = (r.val * 32 + m.val) * 1024 + d.val
    rfl)

/-! ## The maximum over the slots -/

/-- The source index over `(r, d)` with slot `m` inserted on the reduced axis is `(r, m, d)`. -/
theorem lift_eq (r : Fin 64) (m : Fin 32) (d : Fin 1024) : reduces_S64x32x1024_S64x1024.lift (ix2 r d) m = ix3 r m d :=
  funext fun a => Fin.ext (by match a with | ⟨0, _⟩ => rfl | ⟨1, _⟩ => rfl | ⟨2, _⟩ => rfl)

/-- The maximum-reduction over the slots from `-∞`, at `(r, d)`: the fold of `max` over `m` of the operand at `(r, m, d)`. -/
theorem slot_max_apply (v : FVec Ideal S64x32x1024 .f32) (r : Fin 64) (d : Fin 1024) :
    multiReduction .maximumf [1] S64x1024 v 0xFF800000#32 reduces_S64x32x1024_S64x1024 (.inl rfl) rfl (ix2 r d)
      = (Finset.univ : Finset (Fin 32)).fold max (Ideal.ofBits .f32 0xFF800000#32) (fun m => v (ix3 r m d)) := by
  have h := Ideal.multiReduction_maximumf_single v 0xFF800000#32 reduces_S64x32x1024_S64x1024 (.inl rfl) rfl (ix2 r d)
  refine h.trans ?_
  refine Finset.fold_congr (fun m _ => ?_)
  exact congrArg v (lift_eq r m d)

/-! ## The stored value -/

/-- The body's stored value at `(r, d)`. -/
theorem payload_apply (x : Vec Ideal S64x1024 .f32) (wp : Vec Ideal S1024x1024 .bf16) (b : Vec Ideal S1x1024 .f32)
    (o : Vec Ideal S64x32x1024 .f32) (wo : Vec Ideal S1024x1024 .bf16) (r : Fin 64) (d : Fin 1024) :
    k0_pay1 (F := Ideal) x wp b o wo (ix2 r d)
      = (Finset.univ : Finset (Fin 32)).fold max (Ideal.ofBits .f32 0xFF800000#32) (fun m =>
          (∑ k : Fin 1024, x (ix2 r k) * wp (ix2 d k)) + b (ix2 (0 : Fin 1) d) + ∑ k : Fin 1024, o (ix3 r m k) * wo (ix2 d k)) := by
  unfold k0_pay1
  dsimp only
  refine (slot_max_apply _ r d).trans (Finset.fold_congr fun m _ => ?_)
  refine (addf_apply _ _ _).trans ?_
  refine congrArg₂ (fun a c : EReal => a + c) ?_ ?_
  · refine (repeat_mid_apply _ r m d).trans ?_
    refine (unit_mid_apply _ r d).trans ?_
    refine (addf_apply _ _ _).trans ?_
    refine congrArg₂ (fun a c : EReal => a + c) ?_ ?_
    · refine (matmul64_apply _ _ r d).trans ?_
      refine Finset.sum_congr rfl fun k _ => ?_
      rw [shapeCast_self, shapeCast_self]
      rfl
    · refine (bias_rows_apply _ r d).trans ?_
      rw [shapeCast_self]
  · refine (unflatten_apply _ r m d).trans ?_
    refine (matmul2048_apply _ _ (flat r m) d).trans ?_
    refine Finset.sum_congr rfl fun k _ => ?_
    refine congrArg₂ (fun a c : EReal => a * c) ?_ ?_
    · show shapeCast S2048x1024 (shapeCast S64x32x1024 o shapeCasts_S64x32x1024_S64x32x1024) shapeCasts_S64x32x1024_S2048x1024 (ix2 (flat r m) k) = _
      refine (flatten_apply _ r m k).trans ?_
      rw [shapeCast_self]
    · rw [shapeCast_self]

end Cert.KernelIdeal.Body

end
-- ==== Proof.Pooled.lean ====
/-
  The function both programs compute, over the extended reals.

  For a row `n`, one of its `32` slots `m` and a column `d`, the SCORE is
    `(∑ k, P[n,k] · Wp[d,k]) + b[d] + ∑ k, O[n,m,k] · Wo[d,k]`
  (the row's product with `Wp`, the bias, the slot's product with `Wo`), and the result at `(n, d)` is the maximum
  of the scores over the slots, taken from a starting value `init` (both programs start from `-∞`).

  The two programs differ only in where the bias enters the sum: one adds it to the row's product before the
  slot's, the other after. Addition of extended reals is commutative and associative with no side condition,
  so no entry need be finite for the two to agree (`add_bias_last`).
-/
import Idealize.ShloMosaic.PureOps.Ideal
import Idealize.ShloMosaic.Lib.ValueIdx

noncomputable section

namespace Cert.Pooled

open Idealize.ShloMosaic Idealize.ShloMosaic.ValueIdx

/-- The score of row `n` with slot `m` at column `d`: the row's product, plus the bias, plus the slot's product. -/
def score (P : (⟨2, ![2048, 1024]⟩ : Shape).Idx → EReal) (O : (⟨3, ![2048, 32, 1024]⟩ : Shape).Idx → EReal)
    (Wp Wo : (⟨2, ![1024, 1024]⟩ : Shape).Idx → EReal) (b : Fin 1024 → EReal) (n : Fin 2048) (d : Fin 1024) (m : Fin 32) : EReal :=
  (∑ k : Fin 1024, P (ix2 n k) * Wp (ix2 d k)) + b d + ∑ k : Fin 1024, O (ix3 n m k) * Wo (ix2 d k)

/-- The pooled array: at `(n, d)` the maximum over the 32 slots of the score, from `init`. -/
def pooled (init : EReal) (P : (⟨2, ![2048, 1024]⟩ : Shape).Idx → EReal) (O : (⟨3, ![2048, 32, 1024]⟩ : Shape).Idx → EReal)
    (Wp Wo : (⟨2, ![1024, 1024]⟩ : Shape).Idx → EReal) (b : Fin 1024 → EReal) : (⟨2, ![2048, 1024]⟩ : Shape).Idx → EReal :=
  fun i => (Finset.univ : Finset (Fin 32)).fold max init (score P O Wp Wo b (i 0) (i 1))

/-- The bias added last is the bias added in the middle: `(A + B) + c = (A + c) + B` on the extended reals. -/
theorem add_bias_last (A B c : EReal) : A + B + c = A + c + B := add_right_comm A B c

end Cert.Pooled

end
-- ==== Proof.KernelBlock.lean ====
/-
  One block of the pooled array.

  If the body's five operands are blocks of larger arrays — the 64 rows and the 64 × 32 slots starting at row
  `n - r` of `P` and `O`, and the weight matrices and the bias row whole — then the value it stores at `(r, d)`
  is the pooled array of `P, O, Wp, Wo` and the bias row at `(n, d)`: the score's three terms are the body's three
  terms, read through the blocks.
-/
import proofs.«124014_j1984274890946_2_alg».proof.Proof.KernelPayload
import proofs.«124014_j1984274890946_2_alg».proof.Proof.Pooled

noncomputable section

namespace Cert.KernelIdeal.Body

open Cert.KernelIdeal Cert.KernelIdeal.Gen Idealize.ShloMosaic Idealize.ShloMosaic.ValueIdx Cert.Pooled

theorem payload_is_pooled (P : S2048x1024.Idx → EReal) (O : S2048x32x1024.Idx → EReal) (Wp Wo : S1024x1024.Idx → EReal)
    (B : S1x1024.Idx → EReal)
    (x : Vec Ideal S64x1024 .f32) (wp : Vec Ideal S1024x1024 .bf16) (b : Vec Ideal S1x1024 .f32)
    (o : Vec Ideal S64x32x1024 .f32) (wo : Vec Ideal S1024x1024 .bf16)
    (r : Fin 64) (d : Fin 1024) (n : Fin 2048)
    (hx : ∀ k : Fin 1024, x (ix2 r k) = P (ix2 n k))
    (ho : ∀ (m : Fin 32) (k : Fin 1024), o (ix3 r m k) = O (ix3 n m k))
    (hwp : ∀ k : Fin 1024, wp (ix2 d k) = Wp (ix2 d k))
    (hwo : ∀ k : Fin 1024, wo (ix2 d k) = Wo (ix2 d k))
    (hb : b (ix2 (0 : Fin 1) d) = B (ix2 (0 : Fin 1) d)) :
    k0_pay1 (F := Ideal) x wp b o wo (ix2 r d)
      = pooled (Ideal.ofBits .f32 0xFF800000#32) P O Wp Wo (fun d => B (ix2 (0 : Fin 1) d)) (ix2 n d) := by
  rw [payload_apply]
  show _ = (Finset.univ : Finset (Fin 32)).fold max _ (score _ _ _ _ _ n d)
  refine Finset.fold_congr fun m _ => ?_
  unfold score
  simp only [hx, ho, hwp, hwo, hb]

end Cert.KernelIdeal.Body

end
-- ==== Proof.KernelArray.lean ====
/-
  The kernel's output array after the run is the pooled array of the arrays the region finds.

  Grid point `t` (of 32) works on rows `64·t … 64·t + 63`: its row block and its slot block start at row `64·t`, the
  two weight matrices and the bias row are read whole at every point, and what it writes back is rows
  `64·t … 64·t + 63` of the output. So what point `t` writes back is block `t` of ONE array — the pooled array of the
  five input arrays — and the 32 blocks tile the output's 2048 rows: the row `i` lies in block `i / 64`.
-/
import proofs.«124014_j1984274890946_2_alg».proof.Proof.Gen.KernelIdeal.Frame
import proofs.«124014_j1984274890946_2_alg».proof.Proof.KernelBlock
import Idealize.ShloMosaic.Lib.Pipeline.Value

noncomputable section

namespace Cert.KernelIdeal.Arr

open Cert.KernelIdeal Cert.KernelIdeal.Gen Cert.KernelIdeal.Body Idealize.ShloMosaic Idealize.ShloMosaic.TcCoe Idealize.SL.Sem
open Idealize.ShloMosaic.ValueIdx Cert.Pooled
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The pooled array of the five arrays as the region finds them on core `c`. -/
def out (c : Dev nD) : S2048x1024.Idx → EReal :=
  pooled (Ideal.ofBits .f32 0xFF800000#32) (V m c main_v0) (V m c main_v1) (V m c main_v3) (V m c main_v5)
    (fun d => V m c main_v6 (ix2 (0 : Fin 1) d))

/-- The block indices over the grid: the row block, the slot block and the output block sit at block row `t`, every
    other block index is zero. -/
theorem idx_facts : ∀ t : Fin cfg0.N, win0_0.index t (0 : Fin 2) = win0_5.index t (0 : Fin 2)
    ∧ win0_0.index t (1 : Fin 2) = 0
    ∧ win0_1.index t (0 : Fin 3) = win0_5.index t (0 : Fin 2)
    ∧ win0_1.index t (1 : Fin 3) = 0
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0
    ∧ win0_5.index t (0 : Fin 2) ≤ 31 :=
  (by decide +kernel : ∀ t : Fin grid0.N, _)

/-- Every block row of the output is some point's. -/
theorem idx_onto : ∀ q : Fin 32, ∃ t : Fin cfg0.N, win0_5.index t = ![q.val, 0] :=
  (by decide +kernel : ∀ q : Fin 32, ∃ t : Fin grid0.N, win0_5.index t = ![q.val, 0])

/-- WHAT POINT `t` WRITES BACK is block `t` of the pooled array. -/
theorem flushed_eq (c : Dev nD) (t : Fin cfg0.N) :
    (dats m 0 c).flushed 5 t = ((cfg0.win 5).blk t).view.read (Elt Ideal) (out m c) := by
  show (cfg0.win 5).cut (grid0.coords t) ((dats m 0 c).after 5 t) = _
  rw [after0_5]
  unfold out0_5
  rw [View.canon_unit_zero hz2]
  simp only [View.ld_unit_zero (S := S64x1024) hz2, View.ld_unit_zero (S := S1024x1024) hz2,
    View.ld_unit_zero (S := S1x1024) hz2, View.ld_unit_zero (S := S64x32x1024) hz3]
  obtain ⟨e00, e01, e10, e11, e12, e20, e21, e30, e31, e40, e41, e51, e5le⟩ := idx_facts t
  funext j
  obtain ⟨r, d, rfl⟩ : ∃ (r : Fin 64) (d : Fin 1024), j = ix2 r d := ⟨j 0, j 1, eq_ix2 j⟩
  let n : Fin 2048 := ⟨win0_5.index t (0 : Fin 2) * 64 + r.val, by have := r.isLt; omega⟩
  have hemb : ((cfg0.win 5).blk t).view.emb (ix2 r d) = ix2 n d := by
    funext a; apply Fin.ext
    match a with
    | ⟨0, _⟩ => show win0_5.index t (0 : Fin 2) * 64 + 1 * r.val = win0_5.index t (0 : Fin 2) * 64 + r.val; omega
    | ⟨1, _⟩ => show win0_5.index t (1 : Fin 2) * 1024 + 1 * d.val = d.val; omega
  have hx : ∀ k : Fin 1024, iblk m c 0 t (ix2 r k) = V m c main_v0 (ix2 n k) := fun k => by
    show V m c main_v0 (((cfg0.win 0).blk t).view.emb (ix2 r k)) = V m c main_v0 (ix2 n k)
    refine congrArg (V m c main_v0) (funext fun a => Fin.ext ?_)
    match a with
    | ⟨0, _⟩ => show win0_0.index t (0 : Fin 2) * 64 + 1 * r.val = win0_5.index t (0 : Fin 2) * 64 + r.val; omega
    | ⟨1, _⟩ => show win0_0.index t (1 : Fin 2) * 1024 + 1 * k.val = k.val; omega
  have ho : ∀ (s : Fin 32) (k : Fin 1024), iblk m c 1 t (ix3 r s k) = V m c main_v1 (ix3 n s k) := fun s k => by
    show V m c main_v1 (((cfg0.win 1).blk t).view.emb (ix3 r s k)) = V m c main_v1 (ix3 n s k)
    refine congrArg (V m c main_v1) (funext fun a => Fin.ext ?_)
    match a with
    | ⟨0, _⟩ => show win0_1.index t (0 : Fin 3) * 64 + 1 * r.val = win0_5.index t (0 : Fin 2) * 64 + r.val; omega
    | ⟨1, _⟩ => show win0_1.index t (1 : Fin 3) * 32 + 1 * s.val = s.val; omega
    | ⟨2, _⟩ => show win0_1.index t (2 : Fin 3) * 1024 + 1 * k.val = k.val; omega
  have hwp : ∀ k : Fin 1024, iblk m c 2 t (ix2 d k) = V m c main_v3 (ix2 d k) := fun k => by
    show V m c main_v3 (((cfg0.win 2).blk t).view.emb (ix2 d k)) = V m c main_v3 (ix2 d k)
    refine congrArg (V m c main_v3) (funext fun a => Fin.ext ?_)
    match a with
    | ⟨0, _⟩ => show win0_2.index t (0 : Fin 2) * 1024 + 1 * d.val = d.val; omega
    | ⟨1, _⟩ => show win0_2.index t (1 : Fin 2) * 1024 + 1 * k.val = k.val; omega
  have hwo : ∀ k : Fin 1024, iblk m c 3 t (ix2 d k) = V m c main_v5 (ix2 d k) := fun k => by
    show V m c main_v5 (((cfg0.win 3).blk t).view.emb (ix2 d k)) = V m c main_v5 (ix2 d k)
    refine congrArg (V m c main_v5) (funext fun a => Fin.ext ?_)
    match a with
    | ⟨0, _⟩ => show win0_3.index t (0 : Fin 2) * 1024 + 1 * d.val = d.val; omega
    | ⟨1, _⟩ => show win0_3.index t (1 : Fin 2) * 1024 + 1 * k.val = k.val; omega
  have hb : iblk m c 4 t (ix2 (0 : Fin 1) d) = V m c main_v6 (ix2 (0 : Fin 1) d) := by
    show V m c main_v6 (((cfg0.win 4).blk t).view.emb (ix2 (0 : Fin 1) d)) = V m c main_v6 (ix2 (0 : Fin 1) d)
    refine congrArg (V m c main_v6) (funext fun a => Fin.ext ?_)
    match a with
    | ⟨0, _⟩ => show win0_4.index t (0 : Fin 2) * 1 + 1 * 0 = 0; omega
    | ⟨1, _⟩ => show win0_4.index t (1 : Fin 2) * 1024 + 1 * d.val = d.val; omega
  show k0_pay1 (F := Ideal) (iblk m c 0 t) (iblk m c 2 t) (iblk m c 4 t) (iblk m c 1 t) (iblk m c 3 t) (ix2 r d)
    = out m c (((cfg0.win 5).blk t).view.emb (ix2 r d))
  rw [hemb]
  exact payload_is_pooled (V m c main_v0) (V m c main_v1) (V m c main_v3) (V m c main_v5) (V m c main_v6)
    (iblk m c 0 t) (iblk m c 2 t) (iblk m c 4 t) (iblk m c 1 t) (iblk m c 3 t) r d n hx ho hwp hwo hb

/-- An index of the output is in point `t`'s block iff each coordinate is in the block's range on its axis. -/
theorem mem_blk (t : Fin cfg0.N) (i : S2048x1024.Idx) :
    i ∈ ((cfg0.win 5).blk t).view.set ↔ ∀ a : Fin 2, win0_5.index t a * S64x1024.size a ≤ (i a).val ∧ (i a).val < win0_5.index t a * S64x1024.size a + S64x1024.size a := by
  show i ∈ ((View.whole main_v7).slice (win0_5.rect t)).set ↔ _
  rw [View.set_slice_whole, Rect.mem_set_unit]
  exact Iff.rfl

/-- Every index of the output is in the block of the point at its block row. -/
theorem cover (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  obtain ⟨t, ht⟩ := idx_onto ⟨(i 0).val / 64, by omega⟩
  have q0 : win0_5.index t (0 : Fin 2) = (i 0).val / 64 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 1024 ≤ (i 1).val ∧ (i 1).val < win0_5.index t (1 : Fin 2) * 1024 + 1024; omega

/-- THE OUTPUT ARRAY after the run is the pooled array. -/
theorem final (c : Dev nD) : (dats m 0 c).arrAt 5 cfg0.N = out m c :=
  (dats m 0 c).arrAt_eq_of_cover 5 (out m c) (fun t _ => flushed_eq m c t) cover

end Cert.KernelIdeal.Arr

end
-- ==== Proof.KernelHost.lean ====
/-
  The host lines around the kernel's region, read as values.

  Before the region: the two feature arrays are reshaped (their two trailing unit axes dropped), the weight is cut
  into its left and right halves, each narrowed to a format that is the identity on extended reals, and the bias is
  given a leading unit axis. After the region the output array is given two trailing unit axes.
-/
import proofs.«124014_j1984274890946_2_alg».proof.Proof.Gen.KernelIdeal.Frame
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The row array the region finds: the first feature array without its unit axes. -/
theorem V_main_v0 (c : Dev nD) : (V m c main_v0 : S2048x1024.Idx → EReal)
    = shapeCast S2048x1024 (m ((c : Thread nD τ).loc main_arg0)) shapeCasts_S2048x1024x1x1_S2048x1024 := by
  show StableHlo.after (hostOps0 (F := Ideal)) (fun b => m (c, b)) (Proc.devRef .tc main_v0) = _
  after_results
  rfl

/-- The slot array the region finds: the second feature array without its unit axes. -/
theorem V_main_v1 (c : Dev nD) : (V m c main_v1 : S2048x32x1024.Idx → EReal)
    = shapeCast S2048x32x1024 (m ((c : Thread nD τ).loc main_arg1)) shapeCasts_S2048x32x1024x1x1_S2048x32x1024 := by
  show StableHlo.after (hostOps0 (F := Ideal)) (fun b => m (c, b)) (Proc.devRef .tc main_v1) = _
  after_results
  rfl

/-- The first weight matrix the region finds: the left half of the weight. -/
theorem V_main_v3 (c : Dev nD) : (V m c main_v3 : S1024x1024.Idx → EReal)
    = extractStridedSlice S1024x1024 ![0, 0] (m ((c : Thread nD τ).loc main_arg5)) slices_S1024x2048_S1024x1024_0_0 := by
  show StableHlo.after (hostOps0 (F := Ideal)) (fun b => m (c, b)) (Proc.devRef .tc main_v3) = _
  after_results
  rfl

/-- The second weight matrix the region finds: the right half of the weight. -/
theorem V_main_v5 (c : Dev nD) : (V m c main_v5 : S1024x1024.Idx → EReal)
    = extractStridedSlice S1024x1024 ![0, 1024] (m ((c : Thread nD τ).loc main_arg5)) slices_S1024x2048_S1024x1024_0_1024 := by
  show StableHlo.after (hostOps0 (F := Ideal)) (fun b => m (c, b)) (Proc.devRef .tc main_v5) = _
  after_results
  rfl

/-- The bias row the region finds, at `(0, d)`: the bias at `d`. -/
theorem V_main_v6_apply (c : Dev nD) (d : Fin 1024) :
    (V m c main_v6 : S1x1024.Idx → EReal) (ix2 (0 : Fin 1) d) = (m ((c : Thread nD τ).loc main_arg6) : S1024.Idx → EReal) (ix1 d) := by
  have e : (V m c main_v6 : S1x1024.Idx → EReal)
      = shapeCast S1x1024 (m ((c : Thread nD τ).loc main_arg6)) shapeCasts_S1024_S1x1024 := by
    show StableHlo.after (hostOps0 (F := Ideal)) (fun b => m (c, b)) (Proc.devRef .tc main_v6) = _
    after_results
    rfl
  rw [e]
  exact shapeCast_a_1a_apply _ _ (0 : Fin 1) d

/-- The program's result after the lines that follow the region: the output array with two trailing unit axes. -/
theorem tail (c : Dev nD) :
    (Pipeline.afterTail₀ cfgs (dats m) 0 (V0 m) [hostOps1] c main_v8 : S2048x1024x1x1.Idx → EReal)
      = broadcastInDim S2048x1024x1x1 ![0, 1] bcast_S2048x1024_S2048x1024x1x1_0_1 ((dats m 0 c).arrAt 5 cfg0.N) := by
  unfold Pipeline.afterTail₀
  show StableHlo.after (hostOps1 (F := Ideal)) _ (Proc.devRef .tc main_v8) = _
  after_results
  exact congrArg (broadcastInDim S2048x1024x1x1 ![0, 1] bcast_S2048x1024_S2048x1024x1x1_0_1)
    (Pipeline.withArrays_arr spec0 launch0.win.arr_inj c _ _ 5)

end Cert.KernelIdeal.Host

end
-- ==== Proof.KernelRun.lean ====
/-
  The kernel's run, with its result named.

  Every weakly fair execution of the program terminates; its result array is the pooled array — of the two
  feature arrays without their unit axes, the two halves of the weight and the bias — with two trailing unit axes
  added, and the argument arrays end as they were launched. The output array after the region is the pooled array of
  what the region finds (the blocks tile it), what the region finds is the host lines' values of the arguments, and
  the line after the region adds the unit axes.
-/
import proofs.«124014_j1984274890946_2_alg».proof.Proof.KernelArray
import proofs.«124014_j1984274890946_2_alg».proof.Proof.KernelHost

noncomputable section

namespace Cert.KernelIdeal.Result

open Cert.KernelIdeal Cert.KernelIdeal.Gen Idealize.ShloMosaic Idealize.ShloMosaic.TcCoe Idealize.SL.Sem
open Idealize.ShloMosaic.ValueIdx Cert.Pooled

variable (m : (ℓ : Loc nD τ sig) → Buf (Elt Ideal) ℓ) (ρ : Dev nD → PrngReg)

/-- Pooled arrays of equal arguments are equal. -/
theorem pooled_congr {init : EReal} {P P' : (⟨2, ![2048, 1024]⟩ : Shape).Idx → EReal} {O O' : (⟨3, ![2048, 32, 1024]⟩ : Shape).Idx → EReal}
    {Wp Wp' Wo Wo' : (⟨2, ![1024, 1024]⟩ : Shape).Idx → EReal} {b b' : Fin 1024 → EReal}
    (hP : P = P') (hO : O = O') (hWp : Wp = Wp') (hWo : Wo = Wo') (hb : b = b') :
    pooled init P O Wp Wo b = pooled init P' O' Wp' Wo' b' := by
  subst hP hO hWp hWo hb; rfl

/-- The program's result on core `c`, as a function of the launch memory. -/
def value (c : Dev nD) : S2048x1024x1x1.Idx → EReal :=
  broadcastInDim S2048x1024x1x1 ![0, 1] bcast_S2048x1024_S2048x1024x1x1_0_1
    (pooled (Ideal.ofBits .f32 0xFF800000#32)
      (shapeCast S2048x1024 (m ((c : Thread nD τ).loc main_arg0)) shapeCasts_S2048x1024x1x1_S2048x1024)
      (shapeCast S2048x32x1024 (m ((c : Thread nD τ).loc main_arg1)) shapeCasts_S2048x32x1024x1x1_S2048x32x1024)
      (extractStridedSlice S1024x1024 ![0, 0] (m ((c : Thread nD τ).loc main_arg5)) slices_S1024x2048_S1024x1024_0_0)
      (extractStridedSlice S1024x1024 ![0, 1024] (m ((c : Thread nD τ).loc main_arg5)) slices_S1024x2048_S1024x1024_0_1024)
      (fun d => (m ((c : Thread nD τ).loc main_arg6) : S1024.Idx → EReal) (ix1 d)))

/-- The pooled array of what the region finds is the pooled array of the host lines' values of the arguments. -/
theorem out_eq (c : Dev nD) : Arr.out m c
    = pooled (Ideal.ofBits .f32 0xFF800000#32)
      (shapeCast S2048x1024 (m ((c : Thread nD τ).loc main_arg0)) shapeCasts_S2048x1024x1x1_S2048x1024)
      (shapeCast S2048x32x1024 (m ((c : Thread nD τ).loc main_arg1)) shapeCasts_S2048x32x1024x1x1_S2048x32x1024)
      (extractStridedSlice S1024x1024 ![0, 0] (m ((c : Thread nD τ).loc main_arg5)) slices_S1024x2048_S1024x1024_0_0)
      (extractStridedSlice S1024x1024 ![0, 1024] (m ((c : Thread nD τ).loc main_arg5)) slices_S1024x2048_S1024x1024_0_1024)
      (fun d => (m ((c : Thread nD τ).loc main_arg6) : S1024.Idx → EReal) (ix1 d)) := by
  unfold Arr.out
  exact pooled_congr (Host.V_main_v0 m c) (Host.V_main_v1 m c) (Host.V_main_v3 m c) (Host.V_main_v5 m c)
    (funext fun d => Host.V_main_v6_apply m c d)

/-- The program's result after the run. -/
theorem result_eq (c : Dev nD) :
    (Pipeline.afterTail₀ cfgs (dats m) 0 (V0 m) [hostOps1] c main_v8 : S2048x1024x1x1.Idx → EReal) = value m c := by
  rw [Host.tail, Arr.final, out_eq]
  rfl

/-- THE RUN: every weakly fair execution terminates with the result at `value` and the arguments unchanged. -/
theorem run : θ_run defs (onTc (τ := τ) (main (F := Ideal))) ⟨m, fun _ => 0, ρ⟩ (fun r => ∀ c : Dev nD,
      r.2.mem ((c.tc : Thread nD τ).loc main_v8) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_v8 (Pipeline.mem_restRefs_of main_v8 (by decide) (by decide))).trans (result_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Result

end
-- ==== Proof.RefPooled.lean ====
/-
  The reference's maximum-reduced array is the pooled array of its own intermediate arrays.

  Read at an index `(n, d)`, the reference's reduction over axis 1 is the fold of `max` from `-∞` over the 32 slots
  `m` of the summand at `(n, m, d)`; that summand is `(row product + slot product) + bias`, each product a sum over
  the 1024 contracted coordinates, the two broadcasts reading the row product at `(n, d)` and the bias at `d`.
  Moving the bias into the middle (`Pooled.add_bias_last`) gives the score.
-/
import proofs.«124014_j1984274890946_2_alg».proof.Proof.Gen.ReferenceIdeal.Read
import proofs.«124014_j1984274890946_2_alg».proof.Proof.Pooled
import Idealize.ShloMosaic.PureOps.Reduce

noncomputable section

namespace Cert.ReferenceIdeal.RefPooled

open Cert.ReferenceIdeal Cert.ReferenceIdeal.Gen Cert.ReferenceIdeal.Read Idealize.ShloMosaic Idealize.ShloMosaic.ValueIdx Cert.Pooled

/-- The reduction's shape fact in the form that names the inserted coordinate. -/
theorem red : S2048x32x1024.Reduces [1] S2048x1024 := by decide

/-- The summand of the reference's reduction at `(n, m, d)` is the score of row `n`, slot `m`, column `d`. -/
theorem summand_eq (x0 : (⟨S2048x1024x1x1, .f32⟩ : BufTy).Contents (Elt Ideal)) (x1 : (⟨S2048x32x1024x1x1, .f32⟩ : BufTy).Contents (Elt Ideal))
    (x5 : (⟨S1024x2048, .f32⟩ : BufTy).Contents (Elt Ideal)) (x6 : (⟨S1024, .f32⟩ : BufTy).Contents (Elt Ideal))
    (n : Fin 2048) (d : Fin 1024) (m : Fin 32) :
    val_main_v11 (F := Ideal) x0 x1 x5 x6 (ix3 n m d)
      = score (val_main_v0 (F := Ideal) x0) (val_main_v1 (F := Ideal) x1) (val_main_v2 (F := Ideal) x5) (val_main_v3 (F := Ideal) x5)
          (fun d => x6 (ix1 d)) n d m := by
  have e4l : ∀ k : Fin 1024, lidx_main_v4 (idx_main_v6 (idx_main_v7 (ix3 n m d))) k = ix2 n k := fun k =>
    funext fun a => Fin.ext (by match a with | ⟨0, _⟩ => rfl | ⟨1, _⟩ => rfl)
  have e4r : ∀ k : Fin 1024, ridx_main_v4 (idx_main_v6 (idx_main_v7 (ix3 n m d))) k = ix2 d k := fun k =>
    funext fun a => Fin.ext (by match a with | ⟨0, _⟩ => rfl | ⟨1, _⟩ => rfl)
  have e5l : ∀ k : Fin 1024, lidx_main_v5 (ix3 n m d) k = ix3 n m k := fun k =>
    funext fun a => Fin.ext (by match a with | ⟨0, _⟩ => rfl | ⟨1, _⟩ => rfl | ⟨2, _⟩ => rfl)
  have e5r : ∀ k : Fin 1024, ridx_main_v5 (ix3 n m d) k = ix2 d k := fun k =>
    funext fun a => Fin.ext (by match a with | ⟨0, _⟩ => rfl | ⟨1, _⟩ => rfl)
  have e9 : idx_main_v9 (idx_main_v10 (ix3 n m d)) = ix1 d :=
    funext fun a => Fin.ext (by match a with | ⟨0, _⟩ => rfl)
  rw [val_main_v11_apply, val_main_v8_apply, val_main_v7_apply, val_main_v6_apply, val_main_v4_apply, val_main_v5_apply,
    val_main_v10_apply, val_main_v9_apply]
  simp only [e4l, e4r, e5l, e5r, e9, Ideal.addf_def]
  exact add_bias_last _ _ _

/-- The source index over `(n, d)` with slot `m` inserted on the reduced axis is `(n, m, d)`. -/
theorem lift_eq (n : Fin 2048) (d : Fin 1024) (m : Fin 32) : red.lift (ix2 n d) m = ix3 n m d :=
  funext fun a => Fin.ext (by match a with | ⟨0, _⟩ => rfl | ⟨1, _⟩ => rfl | ⟨2, _⟩ => rfl)

/-- A maximum-reduction over axis 1 from `-∞`, read at `(n, d)`: the fold of `max` from `-∞` over the slots `m` of the
    operand at `(n, m, d)`. -/
theorem reduce_max_apply (y : S2048x32x1024.Idx → EReal) (n : Fin 2048) (d : Fin 1024) :
    Host.reduce (FloatOps.maximumf (F := Ideal) (φ := .f32)) y (val_main_cst (F := Ideal)) reducesTo_S2048x32x1024_S2048x1024_d1 h_S_ (ix2 n d)
      = (Finset.univ : Finset (Fin 32)).fold max (Ideal.ofBits .f32 0xFF800000#32) (fun m => y (ix3 n m d)) := by
  have h := Host.reduce_eq_fold_single (FloatOps.maximumf (F := Ideal) (φ := .f32)) y (val_main_cst (F := Ideal))
    reducesTo_S2048x32x1024_S2048x1024_d1 red h_S_ (ix2 n d)
  refine h.trans ?_
  refine Finset.fold_congr (fun m _ => ?_)
  exact congrArg y (lift_eq n d m)

/-- The reference's reduction read at `(n, d)`: the fold of `max` from `-∞` over the slots of the summand at `(n, m, d)`. -/
theorem reduced_apply (x0 : (⟨S2048x1024x1x1, .f32⟩ : BufTy).Contents (Elt Ideal)) (x1 : (⟨S2048x32x1024x1x1, .f32⟩ : BufTy).Contents (Elt Ideal))
    (x5 : (⟨S1024x2048, .f32⟩ : BufTy).Contents (Elt Ideal)) (x6 : (⟨S1024, .f32⟩ : BufTy).Contents (Elt Ideal))
    (n : Fin 2048) (d : Fin 1024) :
    val_main_v12 (F := Ideal) x0 x1 x5 x6 (ix2 n d)
      = (Finset.univ : Finset (Fin 32)).fold max (Ideal.ofBits .f32 0xFF800000#32)
          (fun m => val_main_v11 (F := Ideal) x0 x1 x5 x6 (ix3 n m d)) :=
  reduce_max_apply (val_main_v11 (F := Ideal) x0 x1 x5 x6) n d

/-- The reference's reduced array is the pooled array of its reshaped inputs, the two halves of the weight and the bias. -/
theorem reduced_eq (x0 : (⟨S2048x1024x1x1, .f32⟩ : BufTy).Contents (Elt Ideal)) (x1 : (⟨S2048x32x1024x1x1, .f32⟩ : BufTy).Contents (Elt Ideal))
    (x5 : (⟨S1024x2048, .f32⟩ : BufTy).Contents (Elt Ideal)) (x6 : (⟨S1024, .f32⟩ : BufTy).Contents (Elt Ideal)) :
    val_main_v12 (F := Ideal) x0 x1 x5 x6
      = pooled (Ideal.ofBits .f32 0xFF800000#32) (val_main_v0 (F := Ideal) x0) (val_main_v1 (F := Ideal) x1)
          (val_main_v2 (F := Ideal) x5) (val_main_v3 (F := Ideal) x5) (fun d => x6 (ix1 d)) := by
  funext i
  obtain ⟨n, d, rfl⟩ : ∃ (n : Fin 2048) (d : Fin 1024), i = ix2 n d := ⟨i 0, i 1, eq_ix2 i⟩
  rw [reduced_apply]
  show _ = (Finset.univ : Finset (Fin 32)).fold max _ (score _ _ _ _ _ n d)
  exact Finset.fold_congr (fun m _ => summand_eq x0 x1 x5 x6 n d m)

end Cert.ReferenceIdeal.RefPooled

end
-- ==== Proof.lean ====
/-
  The kernel and its reference compute one function over the extended reals.

  Both take a `2048 × 1024` array `P` of rows, a `2048 × 32 × 1024` array `O` of 32 slots per row, a `1024 × 2048`
  weight whose left and right halves are `Wp` and `Wo`, and a bias `b`, and return at `(n, d)`
    `max over the 32 slots m of  (∑ k, P[n,k]·Wp[d,k]) + (∑ k, O[n,m,k]·Wo[d,k]) + b[d]`,
  the maximum taken from `-∞`, with two trailing unit axes added. The reference adds the bias last; the kernel adds it
  to the row's product first, works on 64 rows at a time, flattens the slots of those rows into 2048 rows for one
  product and rounds its operands to a narrower format, which is the identity on extended reals. Sums of extended
  reals may be regrouped freely, so the two agree at every input, finite or not (`Proof/Pooled.lean`).

  The modules: `Pooled` states the function; `RefPooled` reads the reference's reduction as it; `KernelPayload` and
  `KernelBlock` read the value the kernel's body stores as one block of it; `KernelArray` tiles the output with the 32
  blocks; `KernelHost` reads the host lines around the region; `KernelRun` states the kernel's run. The three frames
  are the generated ones (the reference's is its generated run with the result dropped); the idealization rewrote
  nothing, so `preserves` is trivial.
-/
import proofs.«124014_j1984274890946_2_alg».proof.Defs
import proofs.«124014_j1984274890946_2_alg».proof.Proof.Gen.Kernel
import proofs.«124014_j1984274890946_2_alg».proof.Proof.Gen.Kernel.Skeleton
import proofs.«124014_j1984274890946_2_alg».proof.Proof.Gen.Kernel.Launch
import proofs.«124014_j1984274890946_2_alg».proof.Proof.Gen.Kernel.Points
import proofs.«124014_j1984274890946_2_alg».proof.Proof.Gen.Kernel.Frame
import proofs.«124014_j1984274890946_2_alg».proof.Proof.Gen.KernelIdeal
import proofs.«124014_j1984274890946_2_alg».proof.Proof.Gen.KernelIdeal.Skeleton
import proofs.«124014_j1984274890946_2_alg».proof.Proof.Gen.KernelIdeal.Launch
import proofs.«124014_j1984274890946_2_alg».proof.Proof.Gen.KernelIdeal.Points
import proofs.«124014_j1984274890946_2_alg».proof.Proof.Gen.KernelIdeal.Frame
import proofs.«124014_j1984274890946_2_alg».proof.Proof.Gen.ReferenceIdeal
import proofs.«124014_j1984274890946_2_alg».proof.Proof.Gen.ReferenceIdeal.Run
import proofs.«124014_j1984274890946_2_alg».proof.Proof.Gen.ReferenceIdeal.Read
import proofs.«124014_j1984274890946_2_alg».proof.Proof.Gen.Pre_finite_inputs
import proofs.«124014_j1984274890946_2_alg».proof.Proof.KernelRun
import proofs.«124014_j1984274890946_2_alg».proof.Proof.RefPooled
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the pooled array, two unit axes added: the
    kernel's run states it, and the reference's result is its reduction — the pooled array of its own reshaped
    inputs, weight halves and bias — under the same last line. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq _ _ _ _).trans ?_
  unfold Cert.ReferenceIdeal.Read.val_main_v13
  rw [Cert.ReferenceIdeal.RefPooled.reduced_eq, (hagree c).1, (hagree c).2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
